-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x3 : Shape := ⟨2, ![500000, 3]⟩
abbrev S2x16000000 : Shape := ⟨2, ![2, 16000000]⟩
abbrev S1000000x3 : Shape := ⟨2, ![1000000, 3]⟩
abbrev S_ : Shape := ⟨0, ![]⟩

class Facts : Prop where
  bcast_S_S500000x3 : S_.BroadcastsInDim S500000x3 (![] : Fin 0 → Fin S500000x3.rank)
  reducesTo_S500000x3_S_d0_1 : S500000x3.ReducesTo [0, 1] S_
  h_S_ : 0 < S_.numel

variable [Facts]

def fn {F : FTy → Type} [FloatOps F] (main_arg0 : FVec F S500000x3 .f32) (main_arg1 : FVec F S500000x3 .f32) (main_arg2 : IVec S2x16000000 32) (main_arg3 : IVec S1000000x3 32) : IVec S_ 1 :=
  let main_v0 : FVec F S500000x3 .f32 := Host.absf main_arg0
  let main_cst : FVec F S_ .f32 := constant S_ .f32 0x7F800000#32
  let main_v1 : FVec F S500000x3 .f32 := broadcastInDim S500000x3 ![] bcast_S_S500000x3 main_cst
  let main_v2 : IVec S500000x3 1 := cmpf .olt main_v0 main_v1
  let main_c : IVec S_ 1 := constantI S_ 1 1#1
  let main_v3 : IVec S_ 1 := (fun x v => Host.reduce IntOp.andi x v reducesTo_S500000x3_S_d0_1 h_S_) main_v2 main_c
  let main_v4 : FVec F S500000x3 .f32 := Host.absf main_arg1
  let main_cst_0 : FVec F S_ .f32 := constant S_ .f32 0x7F800000#32
  let main_v5 : FVec F S500000x3 .f32 := broadcastInDim S500000x3 ![] bcast_S_S500000x3 main_cst_0
  let main_v6 : IVec S500000x3 1 := cmpf .olt main_v4 main_v5
  let main_c_1 : IVec S_ 1 := constantI S_ 1 1#1
  let main_v7 : IVec S_ 1 := (fun x v => Host.reduce IntOp.andi x v reducesTo_S500000x3_S_d0_1 h_S_) main_v6 main_c_1
  let main_v8 : IVec S_ 1 := andi main_v3 main_v7
  main_v8
-- ==== Kernel.lean ====
abbrev S500000x3 : Shape := ⟨2, ![500000, 3]⟩
abbrev S2x16000000 : Shape := ⟨2, ![2, 16000000]⟩
abbrev S1000000x3 : Shape := ⟨2, ![1000000, 3]⟩
abbrev S1x16000000 : Shape := ⟨2, ![1, 16000000]⟩
abbrev S16000000 : Shape := ⟨1, ![16000000]⟩
abbrev S_ : Shape := ⟨0, ![]⟩
abbrev S16000000x1 : Shape := ⟨2, ![16000000, 1]⟩
abbrev S16000000x3 : Shape := ⟨2, ![16000000, 3]⟩
abbrev S3x16000000 : Shape := ⟨2, ![3, 16000000]⟩
abbrev S3x128000 : Shape := ⟨2, ![3, 128000]⟩
abbrev S1x128000 : Shape := ⟨2, ![1, 128000]⟩
abbrev S128000 : Shape := ⟨1, ![128000]⟩
abbrev S500000 : Shape := ⟨1, ![500000]⟩
abbrev S2x128000 : Shape := ⟨2, ![2, 128000]⟩
abbrev S32000000 : Shape := ⟨1, ![32000000]⟩

abbrev nBuf : Space → Nat
  | .hbm => 61
  | .vmem => 14
  | .smem => 0
  | _ => 0

abbrev bufTy : (tb : Table) → Fin (tcTables nBuf tb) → BufTy
  | .hbm, ⟨0, _⟩ => ⟨S500000x3, .f32⟩
  | .hbm, ⟨1, _⟩ => ⟨S500000x3, .f32⟩
  | .hbm, ⟨2, _⟩ => ⟨S2x16000000, .i32⟩
  | .hbm, ⟨3, _⟩ => ⟨S1000000x3, .i32⟩
  | .hbm, ⟨4, _⟩ => ⟨S1x16000000, .i32⟩
  | .hbm, ⟨5, _⟩ => ⟨S16000000, .i32⟩
  | .hbm, ⟨6, _⟩ => ⟨S1x16000000, .i32⟩
  | .hbm, ⟨7, _⟩ => ⟨S16000000, .i32⟩
  | .hbm, ⟨8, _⟩ => ⟨S_, .i32⟩
  | .hbm, ⟨9, _⟩ => ⟨S16000000, .i32⟩
  | .hbm, ⟨10, _⟩ => ⟨S16000000, .i1⟩
  | .hbm, ⟨11, _⟩ => ⟨S_, .i32⟩
  | .hbm, ⟨12, _⟩ => ⟨S16000000, .i32⟩
  | .hbm, ⟨13, _⟩ => ⟨S16000000, .i32⟩
  | .hbm, ⟨14, _⟩ => ⟨S16000000, .i32⟩
  | .hbm, ⟨15, _⟩ => ⟨S16000000x1, .i32⟩
  | .hbm, ⟨16, _⟩ => ⟨S16000000x3, .f32⟩
  | .hbm, ⟨17, _⟩ => ⟨S_, .i32⟩
  | .hbm, ⟨18, _⟩ => ⟨S16000000, .i32⟩
  | .hbm, ⟨19, _⟩ => ⟨S16000000, .i1⟩
  | .hbm, ⟨20, _⟩ => ⟨S_, .i32⟩
  | .hbm, ⟨21, _⟩ => ⟨S16000000, .i32⟩
  | .hbm, ⟨22, _⟩ => ⟨S16000000, .i32⟩
  | .hbm, ⟨23, _⟩ => ⟨S16000000, .i32⟩
  | .hbm, ⟨24, _⟩ => ⟨S16000000x1, .i32⟩
  | .hbm, ⟨25, _⟩ => ⟨S16000000x3, .f32⟩
  | .hbm, ⟨26, _⟩ => ⟨S3x16000000, .f32⟩
  | .hbm, ⟨27, _⟩ => ⟨S3x16000000, .f32⟩
  | .hbm, ⟨28, _⟩ => ⟨S1x16000000, .f32⟩
  | .hbm, ⟨29, _⟩ => ⟨S16000000, .f32⟩
  | .hbm, ⟨30, _⟩ => ⟨S_, .f32⟩
  | .hbm, ⟨31, _⟩ => ⟨S500000, .f32⟩
  | .hbm, ⟨32, _⟩ => ⟨S16000000x1, .i32⟩
  | .hbm, ⟨33, _⟩ => ⟨S500000, .f32⟩
  | .hbm, ⟨34, _⟩ => ⟨S_, .f32⟩
  | .hbm, ⟨35, _⟩ => ⟨S500000, .f32⟩
  | .hbm, ⟨36, _⟩ => ⟨S16000000x1, .i32⟩
  | .hbm, ⟨37, _⟩ => ⟨S500000, .f32⟩
  | .hbm, ⟨38, _⟩ => ⟨S_, .i32⟩
  | .hbm, ⟨39, _⟩ => ⟨S16000000, .i32⟩
  | .hbm, ⟨40, _⟩ => ⟨S16000000, .i1⟩
  | .hbm, ⟨41, _⟩ => ⟨S_, .i32⟩
  | .hbm, ⟨42, _⟩ => ⟨S16000000, .i32⟩
  | .hbm, ⟨43, _⟩ => ⟨S16000000, .i32⟩
  | .hbm, ⟨44, _⟩ => ⟨S16000000, .i32⟩
  | .hbm, ⟨45, _⟩ => ⟨S16000000x1, .i32⟩
  | .hbm, ⟨46, _⟩ => ⟨S16000000, .f32⟩
  | .hbm, ⟨47, _⟩ => ⟨S1x16000000, .f32⟩
  | .hbm, ⟨48, _⟩ => ⟨S_, .i32⟩
  | .hbm, ⟨49, _⟩ => ⟨S16000000, .i32⟩
  | .hbm, ⟨50, _⟩ => ⟨S16000000, .i1⟩
  | .hbm, ⟨51, _⟩ => ⟨S_, .i32⟩
  | .hbm, ⟨52, _⟩ => ⟨S16000000, .i32⟩
  | .hbm, ⟨53, _⟩ => ⟨S16000000, .i32⟩
  | .hbm, ⟨54, _⟩ => ⟨S16000000, .i32⟩
  | .hbm, ⟨55, _⟩ => ⟨S16000000x1, .i32⟩
  | .hbm, ⟨56, _⟩ => ⟨S16000000, .f32⟩
  | .hbm, ⟨57, _⟩ => ⟨S1x16000000, .f32⟩
  | .hbm, ⟨58, _⟩ => ⟨S1x16000000, .f32⟩
  | .hbm, ⟨59, _⟩ => ⟨S2x16000000, .f32⟩
  | .hbm, ⟨60, _⟩ => ⟨S32000000, .f32⟩
  | .local _ .vmem, ⟨0, _⟩ => ⟨S3x128000, .f32⟩
  | .local _ .vmem, ⟨1, _⟩ => ⟨S3x128000, .f32⟩
  | .local _ .vmem, ⟨2, _⟩ => ⟨S3x128000, .f32⟩
  | .local _ .vmem, ⟨3, _⟩ => ⟨S3x128000, .f32⟩
  | .local _ .vmem, ⟨4, _⟩ => ⟨S1x128000, .f32⟩
  | .local _ .vmem, ⟨5, _⟩ => ⟨S1x128000, .f32⟩
  | .local _ .vmem, ⟨6, _⟩ => ⟨S1x128000, .f32⟩
  | .local _ .vmem, ⟨7, _⟩ => ⟨S1x128000, .f32⟩
  | .local _ .vmem, ⟨8, _⟩ => ⟨S1x128000, .f32⟩
  | .local _ .vmem, ⟨9, _⟩ => ⟨S1x128000, .f32⟩
  | .local _ .vmem, ⟨10, _⟩ => ⟨S1x128000, .f32⟩
  | .local _ .vmem, ⟨11, _⟩ => ⟨S1x128000, .f32⟩
  | .local _ .vmem, ⟨12, _⟩ => ⟨S2x128000, .f32⟩
  | .local _ .vmem, ⟨13, _⟩ => ⟨S2x128000, .f32⟩
  | _, _ => ⟨S500000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x128000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1x128000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x128000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  transposes_S16000000x3_S3x16000000_1_0 : S16000000x3.Transposes [1, 0] S3x16000000
  inb_S3x128000_S3x128000_0_0 : ∀ a, (![0, 0] : Fin 2 → Nat) a + S3x128000.size a ≤ S3x128000.size a
  h_S3x128000 : 0 < S3x128000.numel
  shapeCasts_S3x128000_S3x128000 : S3x128000.ShapeCasts S3x128000
  reduces_S3x128000_S128000 : S3x128000.Reduces [0] S128000
  shapeCasts_S128000_S1x128000 : S128000.ShapeCasts S1x128000
  inb_S1x128000_S1x128000_0_0 : ∀ a, (![0, 0] : Fin 2 → Nat) a + S1x128000.size a ≤ S1x128000.size a
  h_S1x128000 : 0 < S1x128000.numel
  bcast_S_S500000 : S_.BroadcastsInDim S500000 (![] : Fin 0 → Fin S500000.rank)
  shapeCasts_S16000000_S1x16000000 : S16000000.ShapeCasts S1x16000000
  shapeCasts_S1x128000_S1x128000 : S1x128000.ShapeCasts S1x128000
  concatenates_S1x128000_S1x128000_S2x128000_d0 : Shape.Concatenates [S1x128000, S1x128000] S2x128000 0
  inb_S2x128000_S2x128000_0_0 : ∀ a, (![0, 0] : Fin 2 → Nat) a + S2x128000.size a ≤ S2x128000.size a
  h_S2x128000 : 0 < S2x128000.numel
  shapeCasts_S2x16000000_S32000000 : S2x16000000.ShapeCasts S32000000
  gather_S500000x3_S16000000x1_S16000000x3_1_0_n_n_0_1_13_wf : GatherDims.WF S500000x3 S16000000x1 S16000000x3 [1] [0] [] [0] [] 1 ![1, 3]
  scatter_S500000_S16000000x1_S16000000_n_0_0_1_wf : ScatterDims.WF S500000 S16000000x1 S16000000 [] [0] [0] 1
  gather_S500000_S16000000x1_S16000000_n_0_n_n_0_1_1_wf : GatherDims.WF S500000 S16000000x1 S16000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x128000.size a ≤ S3x16000000.size a
  hwx0_0 : ∀ i : grid0.Coords, EltTy.bits .f32 = 32 ∨ (Rect.block (s := S3x16000000) S3x128000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x128000.size a ≤ S3x16000000.size a
  hwx0_1 : ∀ i : grid0.Coords, EltTy.bits .f32 = 32 ∨ (Rect.block (s := S3x16000000) S3x128000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128000.size a ≤ S1x16000000.size a
  hwx0_2 : ∀ i : grid0.Coords, EltTy.bits .f32 = 32 ∨ (Rect.block (s := S1x16000000) S1x128000.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128000.size a ≤ S1x16000000.size a
  hwx1_0 : ∀ i : grid1.Coords, EltTy.bits .f32 = 32 ∨ (Rect.block (s := S1x16000000) S1x128000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128000.size a ≤ S1x16000000.size a
  hwx1_1 : ∀ i : grid1.Coords, EltTy.bits .f32 = 32 ∨ (Rect.block (s := S1x16000000) S1x128000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128000.size a ≤ S1x16000000.size a
  hwx1_2 : ∀ i : grid1.Coords, EltTy.bits .f32 = 32 ∨ (Rect.block (s := S1x16000000) S1x128000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x128000.size a ≤ S2x16000000.size a
  hwx1_3 : ∀ i : grid1.Coords, EltTy.bits .f32 = 32 ∨ (Rect.block (s := S2x16000000) S2x128000.size (cc1_transform_3 i) (hinb1_3 i)).WholeWords (EltTy.packing .f32)

variable [Facts₀]

def gather_S500000x3_S16000000x1_S16000000x3_1_0_n_n_0_1_13 : GatherDims S500000x3 S16000000x1 S16000000x3 where
  offsetDims := [1]
  collapsedSliceDims := [0]
  operandBatchingDims := []
  startIndicesBatchingDims := []
  startIndexMap := [0]
  indexVectorDim := 1
  sliceSizes := ![1, 3]
  wf := gather_S500000x3_S16000000x1_S16000000x3_1_0_n_n_0_1_13_wf
def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf
def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf

abbrev win0_0 : Pipeline.Window sig grid0 :=
  Pipeline.Window.ofSpec (Memref.whole main_v18) S3x128000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S3x128000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x128000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S1x128000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1x128000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x128000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S2x128000.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S500000x3 : Shape := ⟨2, ![500000, 3]⟩
abbrev S2x16000000 : Shape := ⟨2, ![2, 16000000]⟩
abbrev S1000000x3 : Shape := ⟨2, ![1000000, 3]⟩
abbrev S1x16000000 : Shape := ⟨2, ![1, 16000000]⟩
abbrev S16000000 : Shape := ⟨1, ![16000000]⟩
abbrev S_ : Shape := ⟨0, ![]⟩
abbrev S16000000x1 : Shape := ⟨2, ![16000000, 1]⟩
abbrev S16000000x3 : Shape := ⟨2, ![16000000, 3]⟩
abbrev S500000 : Shape := ⟨1, ![500000]⟩
abbrev S32000000 : Shape := ⟨1, ![32000000]⟩

abbrev nBuf : Space → Nat
  | .hbm => 71
  | .vmem => 0
  | .smem => 0
  | _ => 0

abbrev bufTy : (tb : Table) → Fin (tcTables nBuf tb) → BufTy
  | .hbm, ⟨0, _⟩ => ⟨S500000x3, .f32⟩
  | .hbm, ⟨1, _⟩ => ⟨S500000x3, .f32⟩
  | .hbm, ⟨2, _⟩ => ⟨S2x16000000, .i32⟩
  | .hbm, ⟨3, _⟩ => ⟨S1000000x3, .i32⟩
  | .hbm, ⟨4, _⟩ => ⟨S1x16000000, .i32⟩
  | .hbm, ⟨5, _⟩ => ⟨S16000000, .i32⟩
  | .hbm, ⟨6, _⟩ => ⟨S1x16000000, .i32⟩
  | .hbm, ⟨7, _⟩ => ⟨S16000000, .i32⟩
  | .hbm, ⟨8, _⟩ => ⟨S_, .i32⟩
  | .hbm, ⟨9, _⟩ => ⟨S16000000, .i32⟩
  | .hbm, ⟨10, _⟩ => ⟨S16000000, .i1⟩
  | .hbm, ⟨11, _⟩ => ⟨S_, .i32⟩
  | .hbm, ⟨12, _⟩ => ⟨S16000000, .i32⟩
  | .hbm, ⟨13, _⟩ => ⟨S16000000, .i32⟩
  | .hbm, ⟨14, _⟩ => ⟨S16000000, .i32⟩
  | .hbm, ⟨15, _⟩ => ⟨S16000000x1, .i32⟩
  | .hbm, ⟨16, _⟩ => ⟨S16000000x3, .f32⟩
  | .hbm, ⟨17, _⟩ => ⟨S_, .i32⟩
  | .hbm, ⟨18, _⟩ => ⟨S16000000, .i32⟩
  | .hbm, ⟨19, _⟩ => ⟨S16000000, .i1⟩
  | .hbm, ⟨20, _⟩ => ⟨S_, .i32⟩
  | .hbm, ⟨21, _⟩ => ⟨S16000000, .i32⟩
  | .hbm, ⟨22, _⟩ => ⟨S16000000, .i32⟩
  | .hbm, ⟨23, _⟩ => ⟨S16000000, .i32⟩
  | .hbm, ⟨24, _⟩ => ⟨S16000000x1, .i32⟩
  | .hbm, ⟨25, _⟩ => ⟨S16000000x3, .f32⟩
  | .hbm, ⟨26, _⟩ => ⟨S16000000x3, .f32⟩
  | .hbm, ⟨27, _⟩ => ⟨S16000000x3, .f32⟩
  | .hbm, ⟨28, _⟩ => ⟨S_, .f32⟩
  | .hbm, ⟨29, _⟩ => ⟨S16000000, .f32⟩
  | .hbm, ⟨30, _⟩ => ⟨S_, .f32⟩
  | .hbm, ⟨31, _⟩ => ⟨S16000000, .f32⟩
  | .hbm, ⟨32, _⟩ => ⟨S16000000, .f32⟩
  | .hbm, ⟨33, _⟩ => ⟨S_, .f32⟩
  | .hbm, ⟨34, _⟩ => ⟨S16000000, .f32⟩
  | .hbm, ⟨35, _⟩ => ⟨S16000000, .f32⟩
  | .hbm, ⟨36, _⟩ => ⟨S_, .f32⟩
  | .hbm, ⟨37, _⟩ => ⟨S500000, .f32⟩
  | .hbm, ⟨38, _⟩ => ⟨S16000000x1, .i32⟩
  | .hbm, ⟨39, _⟩ => ⟨S500000, .f32⟩
  | .hbm, ⟨40, _⟩ => ⟨S_, .i32⟩
  | .hbm, ⟨41, _⟩ => ⟨S16000000, .i32⟩
  | .hbm, ⟨42, _⟩ => ⟨S16000000, .i1⟩
  | .hbm, ⟨43, _⟩ => ⟨S_, .i32⟩
  | .hbm, ⟨44, _⟩ => ⟨S16000000, .i32⟩
  | .hbm, ⟨45, _⟩ => ⟨S16000000, .i32⟩
  | .hbm, ⟨46, _⟩ => ⟨S16000000, .i32⟩
  | .hbm, ⟨47, _⟩ => ⟨S16000000x1, .i32⟩
  | .hbm, ⟨48, _⟩ => ⟨S16000000, .f32⟩
  | .hbm, ⟨49, _⟩ => ⟨S16000000, .f32⟩
  | .hbm, ⟨50, _⟩ => ⟨S_, .f32⟩
  | .hbm, ⟨51, _⟩ => ⟨S500000, .f32⟩
  | .hbm, ⟨52, _⟩ => ⟨S16000000x1, .i32⟩
  | .hbm, ⟨53, _⟩ => ⟨S500000, .f32⟩
  | .hbm, ⟨54, _⟩ => ⟨S_, .i32⟩
  | .hbm, ⟨55, _⟩ => ⟨S16000000, .i32⟩
  | .hbm, ⟨56, _⟩ => ⟨S16000000, .i1⟩
  | .hbm, ⟨57, _⟩ => ⟨S_, .i32⟩
  | .hbm, ⟨58, _⟩ => ⟨S16000000, .i32⟩
  | .hbm, ⟨59, _⟩ => ⟨S16000000, .i32⟩
  | .hbm, ⟨60, _⟩ => ⟨S16000000, .i32⟩
  | .hbm, ⟨61, _⟩ => ⟨S16000000x1, .i32⟩
  | .hbm, ⟨62, _⟩ => ⟨S16000000, .f32⟩
  | .hbm, ⟨63, _⟩ => ⟨S16000000, .f32⟩
  | .hbm, ⟨64, _⟩ => ⟨S_, .f32⟩
  | .hbm, ⟨65, _⟩ => ⟨S16000000, .f32⟩
  | .hbm, ⟨66, _⟩ => ⟨S16000000, .f32⟩
  | .hbm, ⟨67, _⟩ => ⟨S_, .f32⟩
  | .hbm, ⟨68, _⟩ => ⟨S16000000, .f32⟩
  | .hbm, ⟨69, _⟩ => ⟨S16000000, .f32⟩
  | .hbm, ⟨70, _⟩ => ⟨S32000000, .f32⟩
  | _, _ => ⟨S500000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_9 : Ref sig .tc := ⟨.hbm, 54, rfl⟩
abbrev main_v39 : Ref sig .tc := ⟨.hbm, 55, rfl⟩
abbrev main_v40 : Ref sig .tc := ⟨.hbm, 56, rfl⟩
abbrev main_c_10 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  reducesTo_S16000000x3_S16000000_d1 : S16000000x3.ReducesTo [1] S16000000
  h_S_ : 0 < S_.numel
  bcast_S_S500000 : S_.BroadcastsInDim S500000 (![] : Fin 0 → Fin S500000.rank)
  concatenates_S16000000_S16000000_S32000000_d0 : Shape.Concatenates [S16000000, S16000000] S32000000 0
  gather_S500000x3_S16000000x1_S16000000x3_1_0_n_n_0_1_13_wf : GatherDims.WF S500000x3 S16000000x1 S16000000x3 [1] [0] [] [0] [] 1 ![1, 3]
  scatter_S500000_S16000000x1_S16000000_n_0_0_1_wf : ScatterDims.WF S500000 S16000000x1 S16000000 [] [0] [0] 1
  gather_S500000_S16000000x1_S16000000_n_0_n_n_0_1_1_wf : GatherDims.WF S500000 S16000000x1 S16000000 [] [0] [] [0] [] 1 ![1]

variable [Facts₀]

def gather_S500000x3_S16000000x1_S16000000x3_1_0_n_n_0_1_13 : GatherDims S500000x3 S16000000x1 S16000000x3 where
  offsetDims := [1]
  collapsedSliceDims := [0]
  operandBatchingDims := []
  startIndicesBatchingDims := []
  startIndexMap := [0]
  indexVectorDim := 1
  sliceSizes := ![1, 3]
  wf := gather_S500000x3_S16000000x1_S16000000x3_1_0_n_n_0_1_13_wf
def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf
def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf

class Facts : Prop extends Facts₀ where

variable [Facts]
-- ==== Proof.ResultRun.lean ====
/-
  The idealized kernel's run with its RESULT kept.

  @main is five segments: host operations, the distance region, host operations (the two segment sums
  and the gathers of them), the normalizing region, and one closing reshape.  The contents of every
  unscoped buffer at each boundary are a fold from the launch memory; at the return they are the last
  fold.  Every weakly fair execution therefore ends with the result buffer holding the last fold's
  value there, and with the four argument arrays as launched.
-/
import proofs.«176298_j31112743092674_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last
    boundary's contents and the argument arrays end as launched. -/
theorem run : θ_run defs (onTc (τ := τ) (main (F := F))) ⟨m, fun _ => 0, ρ⟩ (fun r => ∀ c : Dev nD,
      r.2.mem ((c.tc : Thread nD τ).loc main_v46) = W5 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v46 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Result

end
-- ==== Proof.HostStages.lean ====
/-
  The host operations around the two regions, read back.

  @main's host operations come in three stretches.  Each is read here from an ARBITRARY valuation of the
  buffers at the stretch's start, so the same statement serves at the launch memory, at the first region's
  exit and at the second's.

  Before the distance region: the edge list's two rows `src`, `dst`; each made non-negative by adding the
  vertex count where negative; the vertex rows gathered at them; both transposed to [3, E].  These are, word
  for word, stages of the reference program (its `src`, `dst`, and its two gathers), so they are stated as
  the reference's own stage functions of the two arguments.

  Between the regions: the [1, E] weights flattened; summed per source vertex and per target vertex
  (a scatter-add into zeros at the RAW indices); each sum gathered back per edge at the non-negative
  indices; all three reshaped to [1, E].  `segGather w s` is that "sum by segment, then read the
  segment's sum at each edge" as one function of the weights and an index vector; the reference computes
  its row sums and column sums per edge with exactly this function.

  After the normalizing region: one reshape of the [2, E] result to [2E].
-/
import proofs.«176298_j31112743092674_1_alg».proof.Proof.Gen.KernelIdeal.Frame
import proofs.«176298_j31112743092674_1_alg».proof.Proof.Gen.ReferenceIdeal.Read

set_option maxRecDepth 16384
set_option maxHeartbeats 1000000

noncomputable section

namespace Cert.KernelIdeal.HostStages

open Idealize.ShloMosaic Idealize.ShloMosaic.TcCoe Idealize.SL.Sem Idealize.ShloMosaic.StableHlo
open Cert.KernelIdeal Cert.KernelIdeal.Gen

/-- Sum the per-edge values `w` by segment `s` (into zeros, one slot per vertex, at the raw indices), then
    read each edge's segment total back (at the index made non-negative). -/
def segGather (w : (⟨S16000000, .f32⟩ : BufTy).Contents (Elt Ideal)) (s : (⟨S16000000, .i32⟩ : BufTy).Contents (Elt Ideal)) :
    (⟨S16000000, .f32⟩ : BufTy).Contents (Elt Ideal) :=
  Host.gather gather_S500000_S16000000x1_S16000000_n_0_n_n_0_1_1
    (Host.scatterAdd scatter_S500000_S16000000x1_S16000000_n_0_0_1
      (broadcastInDim S500000 ![] bcast_S_S500000 (constant (F := Ideal) S_ .f32 0x00000000#32))
      (broadcastInDim S16000000x1 ![0] bcast_S16000000_S16000000x1_0 s) w)
    (broadcastInDim S16000000x1 ![0] bcast_S16000000_S16000000x1_0
      (select (cmpi .slt s (broadcastInDim S16000000 ![] bcast_S_S16000000 (constantI S_ 32 0#32)))
        (addi s (broadcastInDim S16000000 ![] bcast_S_S16000000 (constantI S_ 32 500000#32))) s))

/-- The reference's per-edge row sums and column sums are `segGather` of its weights at `src` and at `dst`. -/
theorem ref_rowSums (x1 : (⟨Cert.ReferenceIdeal.S500000x3, .f32⟩ : BufTy).Contents (Elt Ideal))
    (x2 : (⟨Cert.ReferenceIdeal.S2x16000000, .i32⟩ : BufTy).Contents (Elt Ideal)) :
    Cert.ReferenceIdeal.Read.val_main_v34 (F := Ideal) x1 x2
      = segGather (Cert.ReferenceIdeal.Read.val_main_v24 (F := Ideal) x1 x2) (Cert.ReferenceIdeal.Read.val_main_v1 (F := Ideal) x2) := rfl
theorem ref_colSums (x1 : (⟨Cert.ReferenceIdeal.S500000x3, .f32⟩ : BufTy).Contents (Elt Ideal))
    (x2 : (⟨Cert.ReferenceIdeal.S2x16000000, .i32⟩ : BufTy).Contents (Elt Ideal)) :
    Cert.ReferenceIdeal.Read.val_main_v45 (F := Ideal) x1 x2
      = segGather (Cert.ReferenceIdeal.Read.val_main_v24 (F := Ideal) x1 x2) (Cert.ReferenceIdeal.Read.val_main_v3 (F := Ideal) x2) := rfl

variable (Wv : Valuation τ sig (Elt Ideal))

/-! ## Before the distance region -/

theorem src_read : after hostOps0 Wv (Proc.devRef .tc main_v1)
    = Cert.ReferenceIdeal.Read.val_main_v1 (F := Ideal) (Wv (Proc.devRef .tc main_arg2)) := by
  after_results_simp <;> rfl

theorem dst_read : after hostOps0 Wv (Proc.devRef .tc main_v3)
    = Cert.ReferenceIdeal.Read.val_main_v3 (F := Ideal) (Wv (Proc.devRef .tc main_arg2)) := by
  after_results_simp <;> rfl

/-- The first region's first operand: the vertex rows at the (non-negative) sources, transposed. -/
theorem srcRowsT_read : after hostOps0 Wv (Proc.devRef .tc main_v18)
    = transpose S3x16000000 [1, 0]
        (Cert.ReferenceIdeal.Read.val_main_v17 (F := Ideal) (Wv (Proc.devRef .tc main_arg1)) (Wv (Proc.devRef .tc main_arg2)))
        transposes_S16000000x3_S3x16000000_1_0 := by
  after_results_simp <;> rfl

/-- Its second operand: the vertex rows at the targets, transposed. -/
theorem dstRowsT_read : after hostOps0 Wv (Proc.devRef .tc main_v19)
    = transpose S3x16000000 [1, 0]
        (Cert.ReferenceIdeal.Read.val_main_v10 (F := Ideal) (Wv (Proc.devRef .tc main_arg1)) (Wv (Proc.devRef .tc main_arg2)))
        transposes_S16000000x3_S3x16000000_1_0 := by
  after_results_simp <;> rfl

/-! ## Between the regions -/

/-- The second region's first operand: the first region's [1, E] output flattened and reshaped back. -/
theorem weightsRow_read : after hostOps1 Wv (Proc.devRef .tc main_v44)
    = shapeCast S1x16000000 (shapeCast S16000000 (Wv (Proc.devRef .tc main_v20)) shapeCasts_S1x16000000_S16000000)
        shapeCasts_S16000000_S1x16000000 := by
  after_results_simp <;> rfl

theorem rowSumsRow_read : after hostOps1 Wv (Proc.devRef .tc main_v35)
    = shapeCast S1x16000000
        (segGather (shapeCast S16000000 (Wv (Proc.devRef .tc main_v20)) shapeCasts_S1x16000000_S16000000) (Wv (Proc.devRef .tc main_v1)))
        shapeCasts_S16000000_S1x16000000 := by
  after_results_simp <;> rfl

theorem colSumsRow_read : after hostOps1 Wv (Proc.devRef .tc main_v43)
    = shapeCast S1x16000000
        (segGather (shapeCast S16000000 (Wv (Proc.devRef .tc main_v20)) shapeCasts_S1x16000000_S16000000) (Wv (Proc.devRef .tc main_v3)))
        shapeCasts_S16000000_S1x16000000 := by
  after_results_simp <;> rfl

/-! ## After the normalizing region -/

theorem result_read : after hostOps2 Wv (Proc.devRef .tc main_v46)
    = shapeCast S32000000 (Wv (Proc.devRef .tc main_v45)) shapeCasts_S2x16000000_S32000000 := by
  after_results_simp <;> rfl

end Cert.KernelIdeal.HostStages

end
-- ==== Proof.Bodies.lean ====
/-
  The two kernel bodies, each read at ONE entry of the block it stores.

  The distance body loads two [3, n] blocks `s`, `d` (three coordinates per edge, the edges along the
  lanes) and stores the [1, n] row whose entry at edge `q` is

      1 / (1 + Σ_{k<3} (d k q − s k q)²).

  Its sum over the three coordinates is a reduction into a zero accumulator, which over the extended
  reals is just the three-term sum; the one-row reshape of the summed vector reads entry `(0, q)` at `q`.

  The normalizing body loads three [1, n] rows `w`, `r`, `c` and stores the [2, n] block that stacks
  `½ · (w / r)` over `½ · (w / c)`: row 0 at lane `q` is `½ · (w q / r q)`, row 1 is `½ · (w q / c q)`.

  Nothing here needs the inputs finite: no term is moved across a sum or cancelled.
-/
import proofs.«176298_j31112743092674_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Bodies

open Idealize.ShloMosaic Idealize.ShloMosaic.ValueIdx Cert.KernelIdeal Cert.KernelIdeal.Gen

/-! ## The distance body -/

/-- Summing a [3, n] block over its first axis: the index inserted at lane `q` for coordinate `k` is `(k, q)`. -/
theorem lift_dist (q : Fin 128000) (k : Fin 3) :
    reduces_S3x128000_S128000.lift (ix1 q) k = ix2 k q := by
  funext a; apply Fin.ext
  match a with
  | ⟨0, _⟩ => rfl
  | ⟨1, _⟩ => rfl

/-- A vector of length n viewed as a [1, n] block reads its `(0, q)` entry at `q`: the two indices have the same
    row-major position. -/
theorem row_view {α : Type} (v : S128000.Idx → α) (q : Fin 128000) :
    shapeCast S1x128000 v shapeCasts_S128000_S1x128000 (ix2 (0 : Fin 1) q) = v (ix1 q) :=
  shapeCast_apply v shapeCasts_S128000_S1x128000 (ix2 (0 : Fin 1) q) (ix1 q) (by
    rw [Shape.rowMajor_val_one, Shape.rowMajor_val_two]; show q.val = 0 * 128000 + q.val; omega)

/-- The distance body's stored row at lane `q`: one over one plus the squared distance of the edge's two
    endpoints, the square summed over the three coordinates. -/
theorem dist_at (x0 x1 : Vec Ideal S3x128000 .f32) (q : Fin 128000) :
    k0_pay1 (F := Ideal) x0 x1 (ix2 (0 : Fin 1) q)
      = Ideal.div (Ideal.ofBits .f32 0x3F800000#32)
          (Ideal.ofBits .f32 0x3F800000#32 + ∑ k : Fin 3, (x1 (ix2 k q) - x0 (ix2 k q)) * (x1 (ix2 k q) - x0 (ix2 k q))) := by
  unfold k0_pay1
  simp only [divf_apply, addf_apply, broadcast_apply, Ideal.ofBits_def, row_view, shapeCast_self]
  refine congrArg (fun s => Ideal.div _ (_ + s)) ?_
  -- the reduction into the zero accumulator is the plain sum over the reduced axis
  refine (Ideal.multiReduction_add_single _ _ _ _ _ (ix1 q)).trans ?_
  refine Finset.sum_congr rfl fun k _ => ?_
  exact congrArg (fun i => (x1 i - x0 i) * (x1 i - x0 i)) (lift_dist q k)

/-! ## The normalizing body -/

/-- Row 0 of the stored [2, n] block is the first stacked piece: half the weight over the row sum. -/
theorem norm_at_row (a b c : Vec Ideal S1x128000 .f32) (q : Fin 128000) :
    k1_pay1 (F := Ideal) a b c (ix2 (0 : Fin 2) q)
      = Ideal.ofBits .f32 0x3F000000#32 * Ideal.div (a (ix2 (0 : Fin 1) q)) (b (ix2 (0 : Fin 1) q)) := by
  unfold k1_pay1
  refine (concatenate_pair_apply_left (t := S2x128000) (s₁ := S1x128000) (s₂ := S1x128000) (0 : Fin 2) _ _ concatenates_S1x128000_S1x128000_S2x128000_d0
    (ix2 (0 : Fin 2) q) rfl (ix2 (0 : Fin 1) q) (fun b => ?_)).trans ?_
  · match b with
    | ⟨0, _⟩ => rfl
    | ⟨1, _⟩ => rfl
  · simp only [mulf_apply, divf_apply, broadcast_apply, Ideal.ofBits_def, shapeCast_self]

/-- Row 1 is the second stacked piece, read one row up: half the weight over the column sum. -/
theorem norm_at_col (a b c : Vec Ideal S1x128000 .f32) (q : Fin 128000) :
    k1_pay1 (F := Ideal) a b c (ix2 (1 : Fin 2) q)
      = Ideal.ofBits .f32 0x3F000000#32 * Ideal.div (a (ix2 (0 : Fin 1) q)) (c (ix2 (0 : Fin 1) q)) := by
  unfold k1_pay1
  refine (concatenate_pair_apply_right (t := S2x128000) (s₁ := S1x128000) (s₂ := S1x128000) (0 : Fin 2) _ _ concatenates_S1x128000_S1x128000_S2x128000_d0
    (ix2 (1 : Fin 2) q) rfl rfl (ix2 (0 : Fin 1) q) (fun b hb => ?_) rfl).trans ?_
  · match b with
    | ⟨0, _⟩ => exact absurd rfl hb
    | ⟨1, _⟩ => rfl
  · simp only [mulf_apply, divf_apply, broadcast_apply, Ideal.ofBits_def, shapeCast_self]

end Cert.KernelIdeal.Bodies

end
-- ==== Proof.DistArray.lean ====
/-
  The distance region, from its blocks to its whole output array.

  The region's grid has 125 points; point `t` reads columns `t·128000 … t·128000 + 127999` of the two
  [3, E] coordinate arrays (E = 16 000 000 edges) and writes the same columns of the [1, E] output.  So every
  point writes back ITS block of ONE function of the two arrays as the region finds them,

      weight s d (0, e) = 1 / (1 + Σ_{k<3} (d k e − s k e)²),

  the blocks tile the output (column `e` lies in point `e / 128000`'s block), and the array ends holding
  `weight` of the two inputs everywhere.
-/
import proofs.«176298_j31112743092674_1_alg».proof.Proof.Gen.KernelIdeal.Frame
import proofs.«176298_j31112743092674_1_alg».proof.Proof.Bodies

set_option maxRecDepth 16384

noncomputable section

namespace Cert.KernelIdeal.DistArray

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Bodies

variable (V : (c : Dev nD) → (b : Ref sig .tc) → Buf (Elt Ideal) ((c : Thread nD τ).loc b))

theorem hz : (![0, 0] : Fin 2 → Nat) = fun _ => 0 := funext fun a => by fin_cases a <;> rfl

/-- The edge weights as ONE function of the two [3, E] endpoint-coordinate arrays: at edge `e` (the output's
    only row), one over one plus the squared distance between the endpoints. -/
def weight (vs vd : S3x16000000.Idx → EReal) : S1x16000000.Idx → EReal := fun i =>
  Ideal.div (Ideal.ofBits .f32 0x3F800000#32) (Ideal.ofBits .f32 0x3F800000#32 +
    ∑ k : Fin 3, (vd (ix2 k (⟨(i 1).val, idx2_lt1 i⟩ : Fin 16000000)) - vs (ix2 k (⟨(i 1).val, idx2_lt1 i⟩ : Fin 16000000)))
               * (vd (ix2 k (⟨(i 1).val, idx2_lt1 i⟩ : Fin 16000000)) - vs (ix2 k (⟨(i 1).val, idx2_lt1 i⟩ : Fin 16000000))))

/-- The three windows' block indices at point `t`: block row 0, block column `t`. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- One point's stored row agrees with `weight` wherever the point's two input blocks are the arrays' columns
    `T·128000 + q` and the output entry sits in column `T·128000 + lane`. -/
theorem block_eq (x0 x1 : Vec Ideal S3x128000 .f32) (vs vd : S3x16000000.Idx → EReal) (T : Nat) (hT : T < 125)
    (h0 : ∀ (k : Fin 3) (q : Fin 128000), x0 (ix2 k q) = vs (ix2 k (⟨T * 128000 + q.val, by have := q.isLt; omega⟩ : Fin 16000000)))
    (h1 : ∀ (k : Fin 3) (q : Fin 128000), x1 (ix2 k q) = vd (ix2 k (⟨T * 128000 + q.val, by have := q.isLt; omega⟩ : Fin 16000000)))
    (y : S1x128000.Idx) (i : S1x16000000.Idx) (hi : (i 1).val = T * 128000 + (y 1).val) :
    k0_pay1 (F := Ideal) x0 x1 y = weight vs vd i := by
  obtain ⟨p, q, rfl⟩ : ∃ (p : Fin 1) (q : Fin 128000), y = ix2 p q := ⟨y 0, y 1, eq_ix2 y⟩
  obtain rfl : p = 0 := Subsingleton.elim _ _
  refine (dist_at x0 x1 q).trans ?_
  unfold weight
  have e : (⟨(i 1).val, idx2_lt1 i⟩ : Fin 16000000) = ⟨T * 128000 + q.val, by have := q.isLt; omega⟩ := Fin.ext hi
  rw [e]
  refine congrArg (fun s => Ideal.div _ (_ + s)) (Finset.sum_congr rfl fun k _ => ?_)
  rw [h0 k q, h1 k q]

/-- What point `t` writes back is block `t` of `weight` of the two input arrays as the region finds them. -/
theorem flushed_eq (c : Dev nD) (t : Fin cfg0.N) :
    (dat0 V c).flushed 2 t = ((cfg0.win 2).blk t).view.read (Elt Ideal) (weight (V c main_v18) (V c main_v19)) := by
  show (cfg0.win 2).cut (grid0.coords t) ((dat0 V c).after 2 t) = _
  rw [after0_2]
  unfold out0_2
  rw [View.canon_unit_zero hz]
  simp only [View.ld_unit_zero (S := S3x128000) hz]
  obtain ⟨e0, e1, e2, e3, e4, e5⟩ := idx_facts t
  have ht : t.val < 125 := N_0 ▸ t.isLt
  funext j
  show k0_pay1 (iblk0 V c 0 t) (iblk0 V c 1 t) j = weight (V c main_v18) (V c main_v19) (((cfg0.win 2).blk t).view.emb j)
  refine block_eq (iblk0 V c 0 t) (iblk0 V c 1 t) (V c main_v18) (V c main_v19) t.val ht (fun k q => ?_) (fun k q => ?_) j _ ?_
  · -- a block's coordinate is its block index times the block's extent plus the coordinate inside the block
    show V c main_v18 (((cfg0.win 0).blk t).view.emb (ix2 k q)) = _
    refine congrArg (V c main_v18) (funext fun a => Fin.ext ?_)
    match a with
    | ⟨0, _⟩ => show win0_0.index t (0 : Fin 2) * 3 + 1 * k.val = k.val; omega
    | ⟨1, _⟩ => show win0_0.index t (1 : Fin 2) * 128000 + 1 * q.val = t.val * 128000 + q.val; rw [e1]; omega
  · show V c main_v19 (((cfg0.win 1).blk t).view.emb (ix2 k q)) = _
    refine congrArg (V c main_v19) (funext fun a => Fin.ext ?_)
    match a with
    | ⟨0, _⟩ => show win0_1.index t (0 : Fin 2) * 3 + 1 * k.val = k.val; omega
    | ⟨1, _⟩ => show win0_1.index t (1 : Fin 2) * 128000 + 1 * q.val = t.val * 128000 + q.val; rw [e3]; omega
  · show win0_2.index t (1 : Fin 2) * 128000 + 1 * (j 1).val = t.val * 128000 + (j 1).val
    rw [e5]; omega

/-- An index of the output is in point `t`'s block iff each coordinate is in the block's range on its axis. -/
theorem mem_blk (t : Fin cfg0.N) (i : S1x16000000.Idx) :
    i ∈ ((cfg0.win 2).blk t).view.set ↔ ∀ a : Fin 2, win0_2.index t a * S1x128000.size a ≤ (i a).val
      ∧ (i a).val < win0_2.index t a * S1x128000.size a + S1x128000.size a := by
  show i ∈ ((View.whole main_v20).slice (win0_2.rect t)).set ↔ _
  rw [View.set_slice_whole, Rect.mem_set_unit]
  exact Iff.rfl

/-- The blocks tile the output: column `e` lies in the block of point `e / 128000`. -/
theorem cover (i : S1x16000000.Idx) :
    ∃ t : Fin cfg0.N, (cfg0.win 2).flush t = true ∧ i ∈ ((cfg0.win 2).blk t).view.set := by
  have hi0 : (i 0).val < 1 := (i 0).isLt
  have hi1 : (i 1).val < 16000000 := (i 1).isLt
  have hN : (i 1).val / 128000 < cfg0.N := by show (i 1).val / 128000 < grid0.N; rw [N_0]; omega
  refine ⟨⟨(i 1).val / 128000, hN⟩, flush0_2 _, ?_⟩
  rw [mem_blk]
  obtain ⟨e0, e1, e2, e3, e4, e5⟩ := idx_facts ⟨(i 1).val / 128000, hN⟩
  intro a
  match a with
  | ⟨0, _⟩ =>
    show win0_2.index ⟨(i 1).val / 128000, hN⟩ (0 : Fin 2) * 1 ≤ (i 0).val
      ∧ (i 0).val < win0_2.index ⟨(i 1).val / 128000, hN⟩ (0 : Fin 2) * 1 + 1
    rw [e4]; omega
  | ⟨1, _⟩ =>
    show win0_2.index ⟨(i 1).val / 128000, hN⟩ (1 : Fin 2) * 128000 ≤ (i 1).val
      ∧ (i 1).val < win0_2.index ⟨(i 1).val / 128000, hN⟩ (1 : Fin 2) * 128000 + 128000
    rw [e5]; show (i 1).val / 128000 * 128000 ≤ (i 1).val ∧ (i 1).val < (i 1).val / 128000 * 128000 + 128000; omega

/-- The output array after the region: `weight` of the two input arrays as the region finds them. -/
theorem final (c : Dev nD) : (dat0 V c).arrAt 2 cfg0.N = weight (V c main_v18) (V c main_v19) :=
  (dat0 V c).arrAt_eq_of_cover 2 _ (fun t _ => flushed_eq V c t) cover

end Cert.KernelIdeal.DistArray

end
-- ==== Proof.NormArray.lean ====
/-
  The normalizing region, from its blocks to its whole output array.

  Point `t` of its 125 reads columns `t·128000 …` of three [1, E] rows — the weights `w`, the row sums
  gathered per edge `r`, the column sums gathered per edge `c` — and writes the same columns of the [2, E]
  output: row 0 is `½ · (w / r)`, row 1 is `½ · (w / c)`.  Every point writes back its block of that one
  function of the three rows, the blocks tile the output, so the array ends holding it everywhere.
-/
import proofs.«176298_j31112743092674_1_alg».proof.Proof.Gen.KernelIdeal.Frame
import proofs.«176298_j31112743092674_1_alg».proof.Proof.Bodies

set_option maxRecDepth 16384

noncomputable section

namespace Cert.KernelIdeal.NormArray

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Bodies

variable (V : (c : Dev nD) → (b : Ref sig .tc) → Buf (Elt Ideal) ((c : Thread nD τ).loc b))

theorem hz : (![0, 0] : Fin 2 → Nat) = fun _ => 0 := funext fun a => by fin_cases a <;> rfl

/-- The two normalized halves stacked, as ONE function of the three [1, E] rows: row 0 of the [2, E] result
    at edge `e` is half the weight over the row sum, row 1 half the weight over the column sum. -/
def stacked (w rs cs : S1x16000000.Idx → EReal) : S2x16000000.Idx → EReal := fun i =>
  if (i 0).val = 0 then
    Ideal.ofBits .f32 0x3F000000#32 * Ideal.div (w (ix2 (0 : Fin 1) (⟨(i 1).val, idx2_lt1 i⟩ : Fin 16000000))) (rs (ix2 (0 : Fin 1) (⟨(i 1).val, idx2_lt1 i⟩ : Fin 16000000)))
  else
    Ideal.ofBits .f32 0x3F000000#32 * Ideal.div (w (ix2 (0 : Fin 1) (⟨(i 1).val, idx2_lt1 i⟩ : Fin 16000000))) (cs (ix2 (0 : Fin 1) (⟨(i 1).val, idx2_lt1 i⟩ : Fin 16000000)))

/-- The four windows' block indices at point `t`: block row 0, block column `t`. -/
theorem idx_facts : ∀ t : Fin cfg1.N, win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- One point's stored [2, n] block agrees with `stacked` wherever the point's three input rows are the arrays'
    columns `T·128000 + q` and the output entry sits in the same row, column `T·128000 + lane`. -/
theorem block_eq (x0 x1 x2 : Vec Ideal S1x128000 .f32) (w rs cs : S1x16000000.Idx → EReal) (T : Nat) (hT : T < 125)
    (h0 : ∀ q : Fin 128000, x0 (ix2 (0 : Fin 1) q) = w (ix2 (0 : Fin 1) (⟨T * 128000 + q.val, by have := q.isLt; omega⟩ : Fin 16000000)))
    (h1 : ∀ q : Fin 128000, x1 (ix2 (0 : Fin 1) q) = rs (ix2 (0 : Fin 1) (⟨T * 128000 + q.val, by have := q.isLt; omega⟩ : Fin 16000000)))
    (h2 : ∀ q : Fin 128000, x2 (ix2 (0 : Fin 1) q) = cs (ix2 (0 : Fin 1) (⟨T * 128000 + q.val, by have := q.isLt; omega⟩ : Fin 16000000)))
    (y : S2x128000.Idx) (i : S2x16000000.Idx) (hi0 : (i 0).val = (y 0).val) (hi1 : (i 1).val = T * 128000 + (y 1).val) :
    k1_pay1 (F := Ideal) x0 x1 x2 y = stacked w rs cs i := by
  obtain ⟨p, q, rfl⟩ : ∃ (p : Fin 2) (q : Fin 128000), y = ix2 p q := ⟨y 0, y 1, eq_ix2 y⟩
  have e : (⟨(i 1).val, idx2_lt1 i⟩ : Fin 16000000) = ⟨T * 128000 + q.val, by have := q.isLt; omega⟩ := Fin.ext hi1
  unfold stacked
  rw [e]
  match p, hi0 with
  | ⟨0, _⟩, hi0 =>
    rw [if_pos hi0]
    refine (norm_at_row x0 x1 x2 q).trans ?_
    rw [h0 q, h1 q]
  | ⟨1, _⟩, hi0 =>
    rw [if_neg (by rw [hi0]; exact Nat.one_ne_zero)]
    refine (norm_at_col x0 x1 x2 q).trans ?_
    rw [h0 q, h2 q]

/-- What point `t` writes back is block `t` of `stacked` of the three input rows as the region finds them. -/
theorem flushed_eq (c : Dev nD) (t : Fin cfg1.N) :
    (dat1 V c).flushed 3 t
      = ((cfg1.win 3).blk t).view.read (Elt Ideal) (stacked (V c main_v44) (V c main_v35) (V c main_v43)) := by
  show (cfg1.win 3).cut (grid1.coords t) ((dat1 V c).after 3 t) = _
  rw [after1_3]
  unfold out1_3
  rw [View.canon_unit_zero hz]
  simp only [View.ld_unit_zero (S := S1x128000) hz]
  obtain ⟨e0, e1, e2, e3, e4, e5, e6, e7⟩ := idx_facts t
  have ht : t.val < 125 := N_1 ▸ t.isLt
  funext j
  show k1_pay1 (iblk1 V c 0 t) (iblk1 V c 1 t) (iblk1 V c 2 t) j
    = stacked (V c main_v44) (V c main_v35) (V c main_v43) (((cfg1.win 3).blk t).view.emb j)
  refine block_eq (iblk1 V c 0 t) (iblk1 V c 1 t) (iblk1 V c 2 t) (V c main_v44) (V c main_v35) (V c main_v43) t.val ht
    (fun q => ?_) (fun q => ?_) (fun q => ?_) j _ ?_ ?_
  · show V c main_v44 (((cfg1.win 0).blk t).view.emb (ix2 (0 : Fin 1) q)) = _
    refine congrArg (V c main_v44) (funext fun a => Fin.ext ?_)
    match a with
    | ⟨0, _⟩ => show win1_0.index t (0 : Fin 2) * 1 + 1 * 0 = 0; omega
    | ⟨1, _⟩ => show win1_0.index t (1 : Fin 2) * 128000 + 1 * q.val = t.val * 128000 + q.val; rw [e1]; omega
  · show V c main_v35 (((cfg1.win 1).blk t).view.emb (ix2 (0 : Fin 1) q)) = _
    refine congrArg (V c main_v35) (funext fun a => Fin.ext ?_)
    match a with
    | ⟨0, _⟩ => show win1_1.index t (0 : Fin 2) * 1 + 1 * 0 = 0; omega
    | ⟨1, _⟩ => show win1_1.index t (1 : Fin 2) * 128000 + 1 * q.val = t.val * 128000 + q.val; rw [e3]; omega
  · show V c main_v43 (((cfg1.win 2).blk t).view.emb (ix2 (0 : Fin 1) q)) = _
    refine congrArg (V c main_v43) (funext fun a => Fin.ext ?_)
    match a with
    | ⟨0, _⟩ => show win1_2.index t (0 : Fin 2) * 1 + 1 * 0 = 0; omega
    | ⟨1, _⟩ => show win1_2.index t (1 : Fin 2) * 128000 + 1 * q.val = t.val * 128000 + q.val; rw [e5]; omega
  · show win1_3.index t (0 : Fin 2) * 2 + 1 * (j 0).val = (j 0).val
    rw [e6]; omega
  · show win1_3.index t (1 : Fin 2) * 128000 + 1 * (j 1).val = t.val * 128000 + (j 1).val
    rw [e7]; omega

/-- An index of the output is in point `t`'s block iff each coordinate is in the block's range on its axis. -/
theorem mem_blk (t : Fin cfg1.N) (i : S2x16000000.Idx) :
    i ∈ ((cfg1.win 3).blk t).view.set ↔ ∀ a : Fin 2, win1_3.index t a * S2x128000.size a ≤ (i a).val
      ∧ (i a).val < win1_3.index t a * S2x128000.size a + S2x128000.size a := by
  show i ∈ ((View.whole main_v45).slice (win1_3.rect t)).set ↔ _
  rw [View.set_slice_whole, Rect.mem_set_unit]
  exact Iff.rfl

/-- The blocks tile the output: column `e` (either row) lies in the block of point `e / 128000`. -/
theorem cover (i : S2x16000000.Idx) :
    ∃ t : Fin cfg1.N, (cfg1.win 3).flush t = true ∧ i ∈ ((cfg1.win 3).blk t).view.set := by
  have hi0 : (i 0).val < 2 := (i 0).isLt
  have hi1 : (i 1).val < 16000000 := (i 1).isLt
  have hN : (i 1).val / 128000 < cfg1.N := by show (i 1).val / 128000 < grid1.N; rw [N_1]; omega
  refine ⟨⟨(i 1).val / 128000, hN⟩, flush1_3 _, ?_⟩
  rw [mem_blk]
  obtain ⟨e0, e1, e2, e3, e4, e5, e6, e7⟩ := idx_facts ⟨(i 1).val / 128000, hN⟩
  intro a
  match a with
  | ⟨0, _⟩ =>
    show win1_3.index ⟨(i 1).val / 128000, hN⟩ (0 : Fin 2) * 2 ≤ (i 0).val
      ∧ (i 0).val < win1_3.index ⟨(i 1).val / 128000, hN⟩ (0 : Fin 2) * 2 + 2
    rw [e6]; omega
  | ⟨1, _⟩ =>
    show win1_3.index ⟨(i 1).val / 128000, hN⟩ (1 : Fin 2) * 128000 ≤ (i 1).val
      ∧ (i 1).val < win1_3.index ⟨(i 1).val / 128000, hN⟩ (1 : Fin 2) * 128000 + 128000
    rw [e7]; show (i 1).val / 128000 * 128000 ≤ (i 1).val ∧ (i 1).val < (i 1).val / 128000 * 128000 + 128000; omega

/-- The output array after the region: `stacked` of the three input rows as the region finds them. -/
theorem final (c : Dev nD) :
    (dat1 V c).arrAt 3 cfg1.N = stacked (V c main_v44) (V c main_v35) (V c main_v43) :=
  (dat1 V c).arrAt_eq_of_cover 3 _ (fun t _ => flushed_eq V c t) cover

end Cert.KernelIdeal.NormArray

end
-- ==== Proof.Weights.lean ====
/-
  The kernel's edge weights are the reference's.

  The kernel gathers the endpoint rows as [E, 3], transposes them to [3, E] and lets the distance region
  compute, per edge `e`,   1 / (1 + Σ_{k<3} (d k e − s k e)²)   into a [1, E] row, which @main flattens.
  The reference subtracts the same two gathers as [E, 3], squares, sums each row over its three columns
  FROM AN INITIAL VALUE 0 and takes  1 / (1 + ·).  Entry by entry the transposes undo each other, and the
  only law needed between the two sums is  0 + x = x  on the extended reals (the zero word denotes 0).
  No finiteness of the inputs is used.
-/
import proofs.«176298_j31112743092674_1_alg».proof.Proof.DistArray
import proofs.«176298_j31112743092674_1_alg».proof.Proof.Gen.ReferenceIdeal.Read

set_option maxRecDepth 16384

noncomputable section

namespace Cert.KernelIdeal.Weights

open Idealize.ShloMosaic Idealize.ShloMosaic.ValueIdx
open Cert.KernelIdeal Cert.KernelIdeal.Gen Cert.KernelIdeal.DistArray
open Cert.ReferenceIdeal.Read

/-- The [E, 3] → [3, E] transpose reads its `(k, e)` entry at `(e, k)`. -/
theorem transposed_at (z : S16000000x3.Idx → EReal) (k : Fin 3) (e : Fin 16000000) :
    transpose S3x16000000 [1, 0] z transposes_S16000000x3_S3x16000000_1_0 (ix2 k e) = z (ix2 e k) :=
  transpose_apply [1, 0] z transposes_S16000000x3_S3x16000000_1_0 (ix2 k e) (ix2 e k)
    (fun b => match b with | ⟨0, _⟩ => rfl | ⟨1, _⟩ => rfl)

/-- The distance region's whole output, on the transposed gathers and flattened, is the reference's weight
    vector (its `1 / (1 + ‖v[dst] − v[src]‖²)`), as functions of the vertex array and the edge list. -/
theorem weight_eq (x1 : (⟨S500000x3, .f32⟩ : BufTy).Contents (Elt Ideal)) (x2 : (⟨S2x16000000, .i32⟩ : BufTy).Contents (Elt Ideal)) :
    shapeCast S16000000
        (weight (transpose S3x16000000 [1, 0] (val_main_v17 (F := Ideal) x1 x2) transposes_S16000000x3_S3x16000000_1_0)
                (transpose S3x16000000 [1, 0] (val_main_v10 (F := Ideal) x1 x2) transposes_S16000000x3_S3x16000000_1_0))
        shapeCasts_S1x16000000_S16000000
      = val_main_v24 (F := Ideal) x1 x2 := by
  funext e
  obtain ⟨e0, rfl⟩ : ∃ e0 : Fin 16000000, e = ix1 e0 := ⟨e 0, eq_ix1 e⟩
  -- flattening the one-row array: entry e is entry (0, e)
  rw [shapeCast_apply _ shapeCasts_S1x16000000_S16000000 (ix1 e0) (ix2 (0 : Fin 1) e0)
    (by rw [Shape.rowMajor_val_one, Shape.rowMajor_val_two]; show 0 * 16000000 + e0.val = e0.val; omega)]
  -- the reference, stage by stage, at entry e
  rw [val_main_v24_apply, val_main_v23_apply, val_main_cst_4_apply, val_main_v22_apply, val_main_v21_apply,
    val_main_cst_3_apply, val_main_v20_apply, val_main_cst_apply]
  -- its row sum starts from the zero word: 0 + x = x
  simp only [Ideal.hostDivf_def, Ideal.addf_def, Ideal.ofBits_def, Ideal.ofBits_zero_f32, zero_add]
  unfold weight
  refine congrArg (fun s => Ideal.div _ (_ + s)) (Finset.sum_congr rfl fun k _ => ?_)
  rw [val_main_v19_apply, val_main_v18_apply]
  simp only [Ideal.mulf_def, Ideal.subf_def]
  -- coordinate k of edge e: the transposed array at (k, e) is the gathered array at (e, k)
  have hv : ∀ z : S16000000x3.Idx → EReal,
      transpose S3x16000000 [1, 0] z transposes_S16000000x3_S3x16000000_1_0
          (ix2 k (⟨((ix2 (0 : Fin 1) e0) 1).val, idx2_lt1 (ix2 (0 : Fin 1) e0)⟩ : Fin 16000000))
        = z (idx_main_v20 (ix1 e0) k) := fun z =>
    (transposed_at z k e0).trans (congrArg z (funext fun a => Fin.ext (by match a with | ⟨0, _⟩ => rfl | ⟨1, _⟩ => rfl)))
  rw [hv (val_main_v10 (F := Ideal) x1 x2), hv (val_main_v17 (F := Ideal) x1 x2)]

end Cert.KernelIdeal.Weights

end
-- ==== Proof.Stacking.lean ====
/-
  The kernel's [2, E] result, flattened, is the reference's concatenation.

  The normalizing region leaves `½·(w/r)` in row 0 and `½·(w/c)` in row 1 of a [2, E] array, and @main
  reshapes it to [2E]: entry `j` of the flat array is entry `(j / E, j mod E)` of the stacked one (equal
  row-major position).  The reference concatenates the two length-E vectors `½·(w/r)` and `½·(w/c)`: entry
  `j < E` is the first vector's entry `j`, entry `j ≥ E` the second's entry `j − E`.  The two agree entry by
  entry, with the same operations in the same order on both sides; no finiteness is used.
-/
import proofs.«176298_j31112743092674_1_alg».proof.Proof.NormArray
import proofs.«176298_j31112743092674_1_alg».proof.Proof.Gen.ReferenceIdeal.Read

set_option maxRecDepth 16384

noncomputable section

namespace Cert.KernelIdeal.Stacking

open Idealize.ShloMosaic Idealize.ShloMosaic.ValueIdx
open Cert.KernelIdeal Cert.KernelIdeal.Gen Cert.KernelIdeal.NormArray
open Cert.ReferenceIdeal.Read

/-- A vector of length E viewed as a [1, E] row reads its `(0, e)` entry at `e`. -/
theorem row_of_vec {α : Type} (v : S16000000.Idx → α) (e : Fin 16000000) :
    shapeCast S1x16000000 v shapeCasts_S16000000_S1x16000000 (ix2 (0 : Fin 1) e) = v (ix1 e) :=
  shapeCast_apply v shapeCasts_S16000000_S1x16000000 (ix2 (0 : Fin 1) e) (ix1 e) (by
    rw [Shape.rowMajor_val_one, Shape.rowMajor_val_two]; show e.val = 0 * 16000000 + e.val; omega)

/-- The stacked halves of the reference's weights, row sums and column sums (each viewed as a [1, E] row),
    flattened, are the reference's result. -/
theorem result_eq (x1 : (⟨S500000x3, .f32⟩ : BufTy).Contents (Elt Ideal)) (x2 : (⟨S2x16000000, .i32⟩ : BufTy).Contents (Elt Ideal)) :
    shapeCast S32000000
        (stacked (shapeCast S1x16000000 (val_main_v24 (F := Ideal) x1 x2) shapeCasts_S16000000_S1x16000000)
                 (shapeCast S1x16000000 (val_main_v34 (F := Ideal) x1 x2) shapeCasts_S16000000_S1x16000000)
                 (shapeCast S1x16000000 (val_main_v45 (F := Ideal) x1 x2) shapeCasts_S16000000_S1x16000000))
        shapeCasts_S2x16000000_S32000000
      = val_main_v51 (F := Ideal) x1 x2 := by
  funext j
  obtain ⟨j0, rfl⟩ : ∃ j0 : Fin 32000000, j = ix1 j0 := ⟨j 0, eq_ix1 j⟩
  unfold val_main_v51
  by_cases hlt : j0.val < 16000000
  · -- the first half: flat entry j is stacked entry (0, j), and the concatenation's first piece at j
    rw [shapeCast_apply _ shapeCasts_S2x16000000_S32000000 (ix1 j0) (ix2 (0 : Fin 2) (⟨j0.val, hlt⟩ : Fin 16000000))
      (by rw [Shape.rowMajor_val_one, Shape.rowMajor_val_two]; show 0 * 16000000 + j0.val = j0.val; omega)]
    refine Eq.trans ?_ (concatenate_pair_apply_left (t := Cert.ReferenceIdeal.S32000000) (s₁ := Cert.ReferenceIdeal.S16000000) (s₂ := Cert.ReferenceIdeal.S16000000)
      (0 : Fin 1) _ _ Cert.ReferenceIdeal.Gen.concatenates_S16000000_S16000000_S32000000_d0 (ix1 j0) rfl (ix1 (⟨j0.val, hlt⟩ : Fin 16000000))
      (fun b => match b with | ⟨0, _⟩ => rfl)).symm
    rw [val_main_v48_apply, val_main_v47_apply, val_main_cst_11_apply, val_main_v35_apply]
    unfold stacked
    rw [if_pos (show ((ix2 (0 : Fin 2) (⟨j0.val, hlt⟩ : Fin 16000000)) 0).val = 0 from rfl)]
    simp only [Ideal.mulf_def, Ideal.hostDivf_def, Ideal.ofBits_def]
    exact congrArg₂ (fun a b => Ideal.ofBits .f32 0x3F000000#32 * Ideal.div a b)
      (row_of_vec _ (⟨j0.val, hlt⟩ : Fin 16000000)) (row_of_vec _ (⟨j0.val, hlt⟩ : Fin 16000000))
  · -- the second half: flat entry j is stacked entry (1, j − E), and the second piece at j − E
    have hge : 16000000 ≤ j0.val := Nat.le_of_not_lt hlt
    have hj : j0.val < 32000000 := j0.isLt
    have he : j0.val - 16000000 < 16000000 := by omega
    rw [shapeCast_apply _ shapeCasts_S2x16000000_S32000000 (ix1 j0) (ix2 (1 : Fin 2) (⟨j0.val - 16000000, he⟩ : Fin 16000000))
      (by rw [Shape.rowMajor_val_one, Shape.rowMajor_val_two]; show 1 * 16000000 + (j0.val - 16000000) = j0.val; omega)]
    refine Eq.trans ?_ (concatenate_pair_apply_right (t := Cert.ReferenceIdeal.S32000000) (s₁ := Cert.ReferenceIdeal.S16000000) (s₂ := Cert.ReferenceIdeal.S16000000)
      (0 : Fin 1) _ _ Cert.ReferenceIdeal.Gen.concatenates_S16000000_S16000000_S32000000_d0 (ix1 j0) rfl rfl (ix1 (⟨j0.val - 16000000, he⟩ : Fin 16000000))
      (fun b hb => (hb (Subsingleton.elim _ _)).elim)
      (by show (j0.val - 16000000) + 16000000 = j0.val; omega)).symm
    rw [val_main_v50_apply, val_main_v49_apply, val_main_cst_12_apply, val_main_v46_apply]
    unfold stacked
    rw [if_neg (show ¬ ((ix2 (1 : Fin 2) (⟨j0.val - 16000000, he⟩ : Fin 16000000)) 0).val = 0 from Nat.one_ne_zero)]
    simp only [Ideal.mulf_def, Ideal.hostDivf_def, Ideal.ofBits_def]
    exact congrArg₂ (fun a b => Ideal.ofBits .f32 0x3F000000#32 * Ideal.div a b)
      (row_of_vec _ (⟨j0.val - 16000000, he⟩ : Fin 16000000)) (row_of_vec _ (⟨j0.val - 16000000, he⟩ : Fin 16000000))

end Cert.KernelIdeal.Stacking

end
-- ==== Proof.KernelValue.lean ====
/-
  The idealized kernel's result as a function of its arguments: the reference's result.

  Walk the five segments of @main.  From the launch memory the first host stretch makes the two transposed
  gathers of the vertex array (the reference's own gathers, transposed).  The distance region turns them into
  the [1, E] weights, which flattened are the reference's weight vector.  The second host stretch sums those
  by source and by target vertex and reads the sums back per edge — the reference's row sums and column sums —
  and hands the three rows to the normalizing region, which stacks `½·(w/r)` over `½·(w/c)`.  The closing
  reshape of that [2, E] array is the reference's concatenation.  Buffers a region does not own pass through
  it unchanged, which is how the edge list's rows reach the second stretch.
-/
import proofs.«176298_j31112743092674_1_alg».proof.Proof.HostStages
import proofs.«176298_j31112743092674_1_alg».proof.Proof.DistArray
import proofs.«176298_j31112743092674_1_alg».proof.Proof.NormArray
import proofs.«176298_j31112743092674_1_alg».proof.Proof.Weights
import proofs.«176298_j31112743092674_1_alg».proof.Proof.Stacking

set_option maxRecDepth 16384

noncomputable section

namespace Cert.KernelIdeal.Whole

open Idealize.ShloMosaic Idealize.ShloMosaic.TcCoe Idealize.SL.Sem
open Cert.KernelIdeal Cert.KernelIdeal.Gen
open Cert.KernelIdeal.HostStages Cert.KernelIdeal.DistArray Cert.KernelIdeal.NormArray
open Cert.KernelIdeal.Weights Cert.KernelIdeal.Stacking
open Cert.ReferenceIdeal.Read

variable (m : (ℓ : Loc nD τ sig) → Buf (Elt Ideal) ℓ) (ρ : Dev nD → PrngReg)

/-- At the last boundary the result buffer holds the reference's result function of the vertex array and the
    edge list as launched. -/
theorem result_value (c : Dev nD) :
    W5 m ρ c (Proc.devRef .tc main_v46)
      = val_main_v51 (F := Ideal) (m ((c.tc : Thread nD τ).loc main_arg1)) (m ((c.tc : Thread nD τ).loc main_arg2)) := by
  -- the first host stretch, from the launch memory
  have hsrc : W1 m ρ c (Proc.devRef .tc main_v1)
      = val_main_v1 (F := Ideal) (m ((c.tc : Thread nD τ).loc main_arg2)) := src_read (W0 m ρ c)
  have hdst : W1 m ρ c (Proc.devRef .tc main_v3)
      = val_main_v3 (F := Ideal) (m ((c.tc : Thread nD τ).loc main_arg2)) := dst_read (W0 m ρ c)
  have hs : V1 m ρ c main_v18 = transpose S3x16000000 [1, 0]
      (val_main_v17 (F := Ideal) (m ((c.tc : Thread nD τ).loc main_arg1)) (m ((c.tc : Thread nD τ).loc main_arg2)))
      transposes_S16000000x3_S3x16000000_1_0 := srcRowsT_read (W0 m ρ c)
  have hd : V1 m ρ c main_v19 = transpose S3x16000000 [1, 0]
      (val_main_v10 (F := Ideal) (m ((c.tc : Thread nD τ).loc main_arg1)) (m ((c.tc : Thread nD τ).loc main_arg2)))
      transposes_S16000000x3_S3x16000000_1_0 := dstRowsT_read (W0 m ρ c)
  -- the distance region: its output array is `weight` of its two operands, flattened the reference's weights
  have h20 : W2 m ρ c (Proc.devRef .tc main_v20) = weight (V1 m ρ c main_v18) (V1 m ρ c main_v19) :=
    (W2_arr m ρ c 2).trans (DistArray.final (V1 m ρ) c)
  have hw : shapeCast S16000000 (W2 m ρ c (Proc.devRef .tc main_v20)) shapeCasts_S1x16000000_S16000000
      = val_main_v24 (F := Ideal) (m ((c.tc : Thread nD τ).loc main_arg1)) (m ((c.tc : Thread nD τ).loc main_arg2)) := by
    rw [h20, hs, hd]; exact weight_eq _ _
  -- the edge list's two rows are not the region's: they pass through it
  have hsrc2 : W2 m ρ c (Proc.devRef .tc main_v1)
      = val_main_v1 (F := Ideal) (m ((c.tc : Thread nD τ).loc main_arg2)) :=
    (W2_of_ne m ρ c main_v1 (by decide)).trans hsrc
  have hdst2 : W2 m ρ c (Proc.devRef .tc main_v3)
      = val_main_v3 (F := Ideal) (m ((c.tc : Thread nD τ).loc main_arg2)) :=
    (W2_of_ne m ρ c main_v3 (by decide)).trans hdst
  -- the second host stretch: the normalizing region's three operands
  have h44 : V3 m ρ c main_v44 = shapeCast S1x16000000
      (val_main_v24 (F := Ideal) (m ((c.tc : Thread nD τ).loc main_arg1)) (m ((c.tc : Thread nD τ).loc main_arg2)))
      shapeCasts_S16000000_S1x16000000 :=
    (weightsRow_read (W2 m ρ c)).trans (by rw [hw])
  have h35 : V3 m ρ c main_v35 = shapeCast S1x16000000
      (val_main_v34 (F := Ideal) (m ((c.tc : Thread nD τ).loc main_arg1)) (m ((c.tc : Thread nD τ).loc main_arg2)))
      shapeCasts_S16000000_S1x16000000 :=
    (rowSumsRow_read (W2 m ρ c)).trans (by rw [hw, hsrc2, ← ref_rowSums])
  have h43 : V3 m ρ c main_v43 = shapeCast S1x16000000
      (val_main_v45 (F := Ideal) (m ((c.tc : Thread nD τ).loc main_arg1)) (m ((c.tc : Thread nD τ).loc main_arg2)))
      shapeCasts_S16000000_S1x16000000 :=
    (colSumsRow_read (W2 m ρ c)).trans (by rw [hw, hdst2, ← ref_colSums])
  -- the normalizing region: its output array is `stacked` of its three operands
  have h45 : W4 m ρ c (Proc.devRef .tc main_v45)
      = stacked (V3 m ρ c main_v44) (V3 m ρ c main_v35) (V3 m ρ c main_v43) :=
    (W4_arr m ρ c 3).trans (NormArray.final (V3 m ρ) c)
  -- the closing reshape
  refine (result_read (W4 m ρ c)).trans ?_
  rw [h45, h44, h35, h43]
  exact result_eq _ _

end Cert.KernelIdeal.Whole

end
-- ==== Proof.lean ====
/-
  The kernel builds the values of a symmetrized sparse adjacency over E = 16 000 000 edges: per edge the
  rational weight  w = 1 / (1 + ‖v[dst] − v[src]‖²),  normalized by its source vertex's total and by its
  target vertex's total, the two halved and laid one after the other,

      out[e] = ½ · w[e] / (Σ_{e' : src e' = src e} w[e']),     out[E + e] = ½ · w[e] / (Σ_{e' : dst e' = dst e} w[e']).

  It does the gathers and the segment sums with host operations and the two dense stages in two regions
  (distance, normalization), on transposed [3, E] and one-row [1, E] layouts and in tiles of 128 000 edges; the
  reference does all of it with host operations on [E, 3] and [E] arrays.  Over the extended reals the two are
  one function of the vertex array and the edge list: layouts, tiling and the row-major reshape against the
  concatenation are re-indexings, both sides divide and multiply the same operands in the same order, and the one
  arithmetic law between them is  0 + x = x  (the reference's three-term sum starts from an initial 0, the
  kernel's does not).  No step distributes, cancels or reorders across an infinity, so the precondition that the
  float inputs are finite is never opened; nothing is asked of the integer inputs either, since both programs
  index with the same words in the same way.

  Frames: the two kernel programs' frames are the generated ones; the reference's is its generated run with the
  result dropped.  The idealization rewrote no operation, so `preserves` is trivial.  `algebraic`: the kernel's
  run with its result kept (ResultRun) ends at the last boundary's contents, which are the reference's staged
  result function of the arguments (KernelValue, over HostStages, DistArray, NormArray, Weights, Stacking and
  Bodies); the reference's generated run ends at the same function of arguments that agree.
-/
import proofs.«176298_j31112743092674_1_alg».proof.Defs
import proofs.«176298_j31112743092674_1_alg».proof.Proof.Gen.Kernel
import proofs.«176298_j31112743092674_1_alg».proof.Proof.Gen.Kernel.Skeleton
import proofs.«176298_j31112743092674_1_alg».proof.Proof.Gen.Kernel.Launch
import proofs.«176298_j31112743092674_1_alg».proof.Proof.Gen.Kernel.Points
import proofs.«176298_j31112743092674_1_alg».proof.Proof.Gen.Kernel.Frame
import proofs.«176298_j31112743092674_1_alg».proof.Proof.Gen.KernelIdeal
import proofs.«176298_j31112743092674_1_alg».proof.Proof.Gen.KernelIdeal.Skeleton
import proofs.«176298_j31112743092674_1_alg».proof.Proof.Gen.KernelIdeal.Launch
import proofs.«176298_j31112743092674_1_alg».proof.Proof.Gen.KernelIdeal.Points
import proofs.«176298_j31112743092674_1_alg».proof.Proof.Gen.KernelIdeal.Frame
import proofs.«176298_j31112743092674_1_alg».proof.Proof.Gen.ReferenceIdeal
import proofs.«176298_j31112743092674_1_alg».proof.Proof.Gen.ReferenceIdeal.Read
import proofs.«176298_j31112743092674_1_alg».proof.Proof.Gen.Pre_finite_inputs
import proofs.«176298_j31112743092674_1_alg».proof.Proof.ResultRun
import proofs.«176298_j31112743092674_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with the result buffer at one and the same
    function of the vertex array and the edge list: the reference's staged result. -/
theorem algebraic : Cert.algebraic_KernelIdeal_ReferenceIdeal := by
  intro m ρ m' ρ' _ hagree
  refine ⟨fun c => Cert.ReferenceIdeal.Read.val_main_v51 (F := Ideal)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Whole.result_value m ρ c), (h c).2⟩)
      (Cert.KernelIdeal.Result.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v51_eq, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
